-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x64 : Shape := ⟨3, ![4, 1024, 64]⟩
abbrev S_ : Shape := ⟨0, ![]⟩

class Facts : Prop where
  bcast_S_S4x1024x64 : S_.BroadcastsInDim S4x1024x64 (![] : Fin 0 → Fin S4x1024x64.rank)
  reducesTo_S4x1024x64_S_d0_1_2 : S4x1024x64.ReducesTo [0, 1, 2] S_
  h_S_ : 0 < S_.numel

variable [Facts]

def fn {F : FTy → Type} [FloatOps F] (main_arg0 : FVec F S4x1024x64 .f32) (main_arg1 : FVec F S4x1024x64 .f32) : IVec S_ 1 :=
  let main_v0 : FVec F S4x1024x64 .f32 := Host.absf main_arg0
  let main_cst : FVec F S_ .f32 := constant S_ .f32 0x7F800000#32
  let main_v1 : FVec F S4x1024x64 .f32 := broadcastInDim S4x1024x64 ![] bcast_S_S4x1024x64 main_cst
  let main_v2 : IVec S4x1024x64 1 := cmpf .olt main_v0 main_v1
  let main_c : IVec S_ 1 := constantI S_ 1 1#1
  let main_v3 : IVec S_ 1 := (fun x v => Host.reduce IntOp.andi x v reducesTo_S4x1024x64_S_d0_1_2 h_S_) main_v2 main_c
  let main_v4 : FVec F S4x1024x64 .f32 := Host.absf main_arg1
  let main_cst_0 : FVec F S_ .f32 := constant S_ .f32 0x7F800000#32
  let main_v5 : FVec F S4x1024x64 .f32 := broadcastInDim S4x1024x64 ![] bcast_S_S4x1024x64 main_cst_0
  let main_v6 : IVec S4x1024x64 1 := cmpf .olt main_v4 main_v5
  let main_c_1 : IVec S_ 1 := constantI S_ 1 1#1
  let main_v7 : IVec S_ 1 := (fun x v => Host.reduce IntOp.andi x v reducesTo_S4x1024x64_S_d0_1_2 h_S_) main_v6 main_c_1
  let main_v8 : IVec S_ 1 := andi main_v3 main_v7
  main_v8
-- ==== Kernel.lean ====
abbrev S4x1024x64 : Shape := ⟨3, ![4, 1024, 64]⟩
abbrev S4x64x1024 : Shape := ⟨3, ![4, 64, 1024]⟩
abbrev S4x1024x1024 : Shape := ⟨3, ![4, 1024, 1024]⟩
abbrev S1x64x256 : Shape := ⟨3, ![1, 64, 256]⟩
abbrev S1x64x512 : Shape := ⟨3, ![1, 64, 512]⟩
abbrev S1x256x512 : Shape := ⟨3, ![1, 256, 512]⟩
abbrev S256x512 : Shape := ⟨2, ![256, 512]⟩
abbrev S1x8x256 : Shape := ⟨3, ![1, 8, 256]⟩
abbrev S8x256 : Shape := ⟨2, ![8, 256]⟩
abbrev S1x8x512 : Shape := ⟨3, ![1, 8, 512]⟩
abbrev S8x512 : Shape := ⟨2, ![8, 512]⟩
abbrev S8x256x1 : Shape := ⟨3, ![8, 256, 1]⟩
abbrev S8x1x512 : Shape := ⟨3, ![8, 1, 512]⟩
abbrev S8x256x512 : Shape := ⟨3, ![8, 256, 512]⟩

abbrev nBuf : Space → Nat
  | .hbm => 5
  | .vmem => 6
  | .smem => 0
  | _ => 0

abbrev bufTy : (tb : Table) → Fin (tcTables nBuf tb) → BufTy
  | .hbm, ⟨0, _⟩ => ⟨S4x1024x64, .f32⟩
  | .hbm, ⟨1, _⟩ => ⟨S4x1024x64, .f32⟩
  | .hbm, ⟨2, _⟩ => ⟨S4x64x1024, .f32⟩
  | .hbm, ⟨3, _⟩ => ⟨S4x64x1024, .f32⟩
  | .hbm, ⟨4, _⟩ => ⟨S4x1024x1024, .f32⟩
  | .local _ .vmem, ⟨0, _⟩ => ⟨S1x64x256, .f32⟩
  | .local _ .vmem, ⟨1, _⟩ => ⟨S1x64x256, .f32⟩
  | .local _ .vmem, ⟨2, _⟩ => ⟨S1x64x512, .f32⟩
  | .local _ .vmem, ⟨3, _⟩ => ⟨S1x64x512, .f32⟩
  | .local _ .vmem, ⟨4, _⟩ => ⟨S1x256x512, .f32⟩
  | .local _ .vmem, ⟨5, _⟩ => ⟨S1x256x512, .f32⟩
  | _, _ => ⟨S4x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_mult1 : BitVec 32 :=
  let c0_i32 : BitVec 32 := 0#32
  let c8_i32 : BitVec 32 := 8#32
  let v1 : BitVec 32 := Scalar.muli c0_i32 c8_i32
  v1
def k0_off1 (c0_i32 : BitVec 32) : Fin 3 → Nat :=
  let c0 : Index := 0#32
  let c8_i32 : BitVec 32 := 8#32
  let v1 : BitVec 32 := Scalar.muli c0_i32 c8_i32
  let v2 : BitVec 32 := v1
  let v3 : Index := Scalar.indexCast v2
  let c0_0 : Index := 0#32
  ![0, v3.toNat, 0]
def k0_off2 (c0_i32 : BitVec 32) : Fin 3 → Nat :=
  let c0_1 : Index := 0#32
  let c8_i32 : BitVec 32 := 8#32
  let v1 : BitVec 32 := Scalar.muli c0_i32 c8_i32
  let v2 : BitVec 32 := v1
  let v6 : Index := Scalar.indexCast v2
  let c0_2 : Index := 0#32
  ![0, v6.toNat, 0]
def k0_mult2 : BitVec 32 :=
  let c1_i32 : BitVec 32 := 1#32
  let c8_i32_4 : BitVec 32 := 8#32
  let v17 : BitVec 32 := Scalar.muli c1_i32 c8_i32_4
  v17
def k0_mult3 : BitVec 32 :=
  let c2_i32 : BitVec 32 := 2#32
  let c8_i32_10 : BitVec 32 := 8#32
  let v33 : BitVec 32 := Scalar.muli c2_i32 c8_i32_10
  v33
def k0_mult4 : BitVec 32 :=
  let c3_i32 : BitVec 32 := 3#32
  let c8_i32_16 : BitVec 32 := 8#32
  let v49 : BitVec 32 := Scalar.muli c3_i32 c8_i32_16
  v49
def k0_mult5 : BitVec 32 :=
  let c4_i32 : BitVec 32 := 4#32
  let c8_i32_22 : BitVec 32 := 8#32
  let v65 : BitVec 32 := Scalar.muli c4_i32 c8_i32_22
  v65
def k0_mult6 : BitVec 32 :=
  let c5_i32 : BitVec 32 := 5#32
  let c8_i32_28 : BitVec 32 := 8#32
  let v81 : BitVec 32 := Scalar.muli c5_i32 c8_i32_28
  v81
def k0_mult7 : BitVec 32 :=
  let c6_i32 : BitVec 32 := 6#32
  let c8_i32_34 : BitVec 32 := 8#32
  let v97 : BitVec 32 := Scalar.muli c6_i32 c8_i32_34
  v97
def k0_mult8 : BitVec 32 :=
  let c7_i32 : BitVec 32 := 7#32
  let c8_i32_40 : BitVec 32 := 8#32
  let v113 : BitVec 32 := Scalar.muli c7_i32 c8_i32_40
  v113
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  transposes_S4x1024x64_S4x64x1024_0_2_1 : S4x1024x64.Transposes [0, 2, 1] S4x64x1024
  h_S1x8x256 : 0 < S1x8x256.numel
  shapeCasts_S1x8x256_S8x256 : S1x8x256.ShapeCasts S8x256
  h_S1x8x512 : 0 < S1x8x512.numel
  shapeCasts_S1x8x512_S8x512 : S1x8x512.ShapeCasts S8x512
  shapeCasts_S8x256_S8x256x1 : S8x256.ShapeCasts S8x256x1
  shapeCasts_S8x512_S8x1x512 : S8x512.ShapeCasts S8x1x512
  broadcasts_S8x256x1_S8x256x512 : S8x256x1.Broadcasts S8x256x512
  broadcasts_S8x1x512_S8x256x512 : S8x1x512.Broadcasts S8x256x512
  reduces_S8x256x512_S256x512 : S8x256x512.Reduces [0] S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  hrank0 : 0 < grid0.rank
  k0_mult1_dvd : 8 ∣ k0_mult1.toNat
  k0_off1_inb : ∀ (r : Fin 8), ∀ a, (k0_off1 (BitVec.ofNat 32 r.val)) a + S1x8x256.size a ≤ S1x64x256.size a
  k0_off2_inb : ∀ (r : Fin 8), ∀ a, (k0_off2 (BitVec.ofNat 32 r.val)) a + S1x8x512.size a ≤ S1x64x512.size a
  k0_mult2_dvd : 8 ∣ k0_mult2.toNat
  k0_mult3_dvd : 8 ∣ k0_mult3.toNat
  k0_mult4_dvd : 8 ∣ k0_mult4.toNat
  k0_mult5_dvd : 8 ∣ k0_mult5.toNat
  k0_mult6_dvd : 8 ∣ k0_mult6.toNat
  k0_mult7_dvd : 8 ∣ k0_mult7.toNat
  k0_mult8_dvd : 8 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256.size a ≤ S4x64x1024.size a
  hwx0_0 : ∀ i : grid0.Coords, EltTy.bits .f32 = 32 ∨ (Rect.block (s := S4x64x1024) S1x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S4x64x1024.size a
  hwx0_1 : ∀ i : grid0.Coords, EltTy.bits .f32 = 32 ∨ (Rect.block (s := S4x64x1024) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S4x1024x1024.size a
  hwx0_2 : ∀ i : grid0.Coords, EltTy.bits .f32 = 32 ∨ (Rect.block (s := S4x1024x1024) S1x256x512.size (cc0_transform_2 i) (hinb0_2 i)).WholeWords (EltTy.packing .f32)

variable [Facts₀]

abbrev win0_0 : Pipeline.Window sig grid0 :=
  Pipeline.Window.ofSpec (Memref.whole main_v0) S1x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x1024x64 : Shape := ⟨3, ![4, 1024, 64]⟩
abbrev S4x1024x1x64 : Shape := ⟨4, ![4, 1024, 1, 64]⟩
abbrev S4x1x1024x64 : Shape := ⟨4, ![4, 1, 1024, 64]⟩
abbrev S4x1024x1024x64 : Shape := ⟨4, ![4, 1024, 1024, 64]⟩
abbrev S_ : Shape := ⟨0, ![]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x1024x64, .f32⟩
  | .hbm, ⟨1, _⟩ => ⟨S4x1024x64, .f32⟩
  | .hbm, ⟨2, _⟩ => ⟨S4x1024x1x64, .f32⟩
  | .hbm, ⟨3, _⟩ => ⟨S4x1x1024x64, .f32⟩
  | .hbm, ⟨4, _⟩ => ⟨S4x1024x1024x64, .f32⟩
  | .hbm, ⟨5, _⟩ => ⟨S4x1024x1024x64, .f32⟩
  | .hbm, ⟨6, _⟩ => ⟨S4x1024x1024x64, .f32⟩
  | .hbm, ⟨7, _⟩ => ⟨S4x1024x1024x64, .f32⟩
  | .hbm, ⟨8, _⟩ => ⟨S_, .f32⟩
  | .hbm, ⟨9, _⟩ => ⟨S4x1024x1024, .f32⟩
  | .hbm, ⟨10, _⟩ => ⟨S4x1024x1024, .f32⟩
  | _, _ => ⟨S4x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S4x1024x64_S4x1024x1x64_0_1_3 : S4x1024x64.BroadcastsInDim S4x1024x1x64 (![0, 1, 3] : Fin 3 → Fin S4x1024x1x64.rank)
  bcast_S4x1024x64_S4x1x1024x64_0_2_3 : S4x1024x64.BroadcastsInDim S4x1x1024x64 (![0, 2, 3] : Fin 3 → Fin S4x1x1024x64.rank)
  bcast_S4x1024x1x64_S4x1024x1024x64_0_1_2_3 : S4x1024x1x64.BroadcastsInDim S4x1024x1024x64 (![0, 1, 2, 3] : Fin 4 → Fin S4x1024x1024x64.rank)
  bcast_S4x1x1024x64_S4x1024x1024x64_0_1_2_3 : S4x1x1024x64.BroadcastsInDim S4x1024x1024x64 (![0, 1, 2, 3] : Fin 4 → Fin S4x1024x1024x64.rank)
  reducesTo_S4x1024x1024x64_S4x1024x1024_d3 : S4x1024x1024x64.ReducesTo [3] S4x1024x1024
  h_S_ : 0 < S_.numel

variable [Facts₀]

class Facts : Prop extends Facts₀ where

variable [Facts]
-- ==== Proof.SadSpec.lean ====
/-
  The specification: the negated L1 distance of two stacks of rows.

  For arrays `x0, x1 : [4, 1024, 64]` of extended reals, the result at `(b, n, k)` is
      sad x0 x1 (b, n, k) = -(∑ d < 64, |x0 (b, n, d) - x1 (b, k, d)|),
  where `|t|` is `max t (-t)`. Both programs compute this: the reference sums the 64 coordinates at once, the
  kernel sums them in eight blocks of eight and adds the blocks up. The two agree because a sum over `Fin 64` is
  the sum over the eight blocks `d = 8 c + j` (`sum_eight_blocks`): only commutativity and associativity of `+` are
  used, so the law holds at the infinities too and no finiteness of the inputs is needed.
-/
import Idealize.ShloMosaic.PureOps.Ideal
import Idealize.ShloMosaic.Lib.ValueIdx

noncomputable section

namespace Cert.Sad

open Idealize.ShloMosaic Idealize.ShloMosaic.ValueIdx

/-- `|a - b|` on the extended reals, as the exact arithmetic reads `abs (a - b)`. -/
def absDiff (a b : EReal) : EReal := max (a - b) (-(a - b))

/-- The negated sum of absolute differences over the last axis: the value both programs compute at `(b, n, k)`. -/
def sad (x0 x1 : (⟨3, ![4, 1024, 64]⟩ : Shape).Idx → EReal) : (⟨3, ![4, 1024, 1024]⟩ : Shape).Idx → EReal :=
  fun i => -(∑ d : Fin 64, absDiff (x0 (ix3 (i 0) (i 1) d)) (x1 (ix3 (i 0) (i 2) d)))

/-- A coordinate `d < 64` is `8 c + j` for exactly one block `c < 8` and one place `j < 8` in the block. -/
def blockEquiv : Fin 8 × Fin 8 ≃ Fin 64 where
  toFun x := ⟨8 * x.1.val + x.2.val, by have := x.1.isLt; have := x.2.isLt; omega⟩
  invFun d := (⟨d.val / 8, by have := d.isLt; omega⟩, ⟨d.val % 8, by omega⟩)
  left_inv := fun ⟨a, b⟩ => Prod.ext
    (Fin.ext (by show (8 * a.val + b.val) / 8 = a.val; have := b.isLt; omega))
    (Fin.ext (by show (8 * a.val + b.val) % 8 = b.val; have := b.isLt; omega))
  right_inv := fun d => Fin.ext (by show 8 * (d.val / 8) + d.val % 8 = d.val; omega)

/-- A sum over 64 coordinates is the sum, over the eight blocks, of each block's eight terms. -/
theorem sum_eight_blocks {M : Type*} [AddCommMonoid M] (f : Fin 64 → M) :
    ∑ d : Fin 64, f d
      = ∑ c : Fin 8, ∑ j : Fin 8, f ⟨8 * c.val + j.val, by have := c.isLt; have := j.isLt; omega⟩ := by
  rw [← Equiv.sum_comp blockEquiv f, Fintype.sum_prod_type]
  rfl

end Cert.Sad

end
-- ==== Proof.ChunkValue.lean ====
/-
  The kernel body's arithmetic, read at an index.

  The body walks the 64 coordinates in eight blocks of eight. For block `c` it loads rows `8c … 8c+7` of the
  left tile (`[1, 8, 256]`) and of the right tile (`[1, 8, 512]`), lays the left rows along the columns and the
  right rows along the rows of an `[8, 256, 512]` box, takes `|l - r|` there and sums the box over its first axis
  (`chunk`): at `(p, q)` that is `∑ j < 8, |l (0, j, p) - r (0, j, q)|` (`chunk_apply`). The eight chunks are
  added to a zero tile one after the other and the total is negated as `0 - total` (`body`); on the extended reals
  `0 + x = x` and `0 - x = -x`, so at `(p, q)` the body is `-(∑ c < 8, ∑ j < 8, |l_c (0, j, p) - r_c (0, j, q)|)`
  (`body_apply`). The printed payloads compose to `body` of the sixteen loads by unfolding (`pay_eq_body`).
-/
import proofs.«134239_j38706245272206_2_alg».proof.Proof.Gen.KernelIdeal.Skeleton
import proofs.«134239_j38706245272206_2_alg».proof.Proof.SadSpec
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Idealize.SL.Sem
open Cert.Sad (absDiff)

variable {F : FTy → Type} [FloatOps F]

/-- One block of eight coordinates: the left rows against the right rows, `|l - r|` summed over the block. -/
def chunk (a : Vec F S1x8x256 .f32) (b : Vec F S1x8x512 .f32) : FVec F S256x512 .f32 :=
  multiReduction .add [0] S256x512
    (absf (subf
      (broadcastTo S8x256x512 (shapeCast S8x256x1 (shapeCast S8x256 a shapeCasts_S1x8x256_S8x256) shapeCasts_S8x256_S8x256x1)
        broadcasts_S8x256x1_S8x256x512)
      (broadcastTo S8x256x512 (shapeCast S8x1x512 (shapeCast S8x512 b shapeCasts_S1x8x512_S8x512) shapeCasts_S8x512_S8x1x512)
        broadcasts_S8x1x512_S8x256x512)))
    0x00000000#32 reduces_S8x256x512_S256x512 (.inl rfl) rfl

/-- The whole body over its sixteen loads: the eight chunks added to a zero tile in order, negated as `0 - total`,
    and given the output block's leading unit axis. -/
def body (la : Fin 8 → Vec F S1x8x256 .f32) (ra : Fin 8 → Vec F S1x8x512 .f32) : FVec F S1x256x512 .f32 :=
  shapeCast S1x256x512
    (subf (broadcast S256x512 (Scalar.ofBits .f32 0x00000000#32))
      (addf (addf (addf (addf (addf (addf (addf (addf (broadcast S256x512 (Scalar.ofBits .f32 0x00000000#32))
        (chunk (la 0) (ra 0))) (chunk (la 1) (ra 1))) (chunk (la 2) (ra 2))) (chunk (la 3) (ra 3)))
        (chunk (la 4) (ra 4))) (chunk (la 5) (ra 5))) (chunk (la 6) (ra 6))) (chunk (la 7) (ra 7))))
    shapeCasts_S256x512_S1x256x512

/-- The printed payloads, composed as the body composes them, are `body` of the sixteen loaded vectors. -/
theorem pay_eq_body (la : Fin 8 → Vec F S1x8x256 .f32) (ra : Fin 8 → Vec F S1x8x512 .f32) :
    k0_pay1
      (k0_pay5
        (k0_pay4 (k0_pay2 (la 0) (ra 0) (la 1) (ra 1)) (k0_pay3 (la 2)) (ra 2) (la 3) (ra 3) (la 4) (ra 4))
        (la 5) (ra 5) (la 6) (ra 6))
      (k0_pay6 (la 7)) (k0_pay7 (ra 7))
    = body la ra := rfl

/-- The left rows laid along the columns: at `(j, p, q)` of the box, row `j` of the loaded tile at lane `p`. -/
theorem left_apply (a : Vec Ideal S1x8x256 .f32) (k : S8x256x512.Idx) (j : Fin 8) (p : Fin 256)
    (h0 : (k 0).val = j.val) (h1 : (k 1).val = p.val) :
    broadcastTo S8x256x512 (shapeCast S8x256x1 (shapeCast S8x256 a shapeCasts_S1x8x256_S8x256) shapeCasts_S8x256_S8x256x1)
        broadcasts_S8x256x1_S8x256x512 k
      = a (ix3 (0 : Fin 1) j p) := by
  refine (broadcastTo_apply _ broadcasts_S8x256x1_S8x256x512 k (ix3 j p (0 : Fin 1)) (fun d => ?_)).trans ?_
  · match d with
    | ⟨0, _⟩ => exact h0.symm
    | ⟨1, _⟩ => exact h1.symm
    | ⟨2, _⟩ => rfl
  refine (shapeCast_apply _ shapeCasts_S8x256_S8x256x1 (ix3 j p (0 : Fin 1)) (ix2 j p) ?_).trans ?_
  · rw [Shape.rowMajor_val_two, Shape.rowMajor_val_three]
    show j.val * 256 + p.val = (j.val * 256 + p.val) * 1 + 0
    omega
  exact shapeCast_1ab_ab_apply a shapeCasts_S1x8x256_S8x256 j p

/-- The right rows laid along the rows: at `(j, p, q)` of the box, row `j` of the loaded tile at lane `q`. -/
theorem right_apply (b : Vec Ideal S1x8x512 .f32) (k : S8x256x512.Idx) (j : Fin 8) (q : Fin 512)
    (h0 : (k 0).val = j.val) (h2 : (k 2).val = q.val) :
    broadcastTo S8x256x512 (shapeCast S8x1x512 (shapeCast S8x512 b shapeCasts_S1x8x512_S8x512) shapeCasts_S8x512_S8x1x512)
        broadcasts_S8x1x512_S8x256x512 k
      = b (ix3 (0 : Fin 1) j q) := by
  refine (broadcastTo_apply _ broadcasts_S8x1x512_S8x256x512 k (ix3 j (0 : Fin 1) q) (fun d => ?_)).trans ?_
  · match d with
    | ⟨0, _⟩ => exact h0.symm
    | ⟨1, _⟩ => rfl
    | ⟨2, _⟩ => exact h2.symm
  refine (shapeCast_apply _ shapeCasts_S8x512_S8x1x512 (ix3 j (0 : Fin 1) q) (ix2 j q) ?_).trans ?_
  · rw [Shape.rowMajor_val_two, Shape.rowMajor_val_three]
    show j.val * 512 + q.val = (j.val * 1 + 0) * 512 + q.val
    omega
  exact shapeCast_1ab_ab_apply b shapeCasts_S1x8x512_S8x512 j q

/-- One chunk at `(p, q)`: the eight absolute differences of the block, summed. -/
theorem chunk_apply (a : Vec Ideal S1x8x256 .f32) (b : Vec Ideal S1x8x512 .f32) (p : Fin 256) (q : Fin 512) :
    chunk (F := Ideal) a b (ix2 p q) = ∑ j : Fin 8, absDiff (a (ix3 (0 : Fin 1) j p)) (b (ix3 (0 : Fin 1) j q)) := by
  unfold chunk
  refine (Ideal.multiReduction_add_single _ _ reduces_S8x256x512_S256x512 _ _ (ix2 p q)).trans ?_
  refine Finset.sum_congr rfl fun j _ => ?_
  show max (_ - _) (-(_ - _)) = absDiff _ _
  rw [left_apply a _ j p rfl rfl, right_apply b _ j q rfl rfl]
  rfl

/-- The body at `(u, p, q)` of the output block: the negated sum of all sixty-four absolute differences, block by block. -/
theorem body_apply (la : Fin 8 → Vec Ideal S1x8x256 .f32) (ra : Fin 8 → Vec Ideal S1x8x512 .f32)
    (u : Fin 1) (p : Fin 256) (q : Fin 512) :
    body (F := Ideal) la ra (ix3 u p q)
      = -(∑ c : Fin 8, ∑ j : Fin 8, absDiff (la c (ix3 (0 : Fin 1) j p)) (ra c (ix3 (0 : Fin 1) j q))) := by
  unfold body
  rw [shapeCast_ab_1ab_apply _ shapeCasts_S256x512_S1x256x512 u p q]
  show (Ideal.ofBits .f32 0x00000000#32 : EReal)
      - (((((((((Ideal.ofBits .f32 0x00000000#32 : EReal) + chunk (F := Ideal) (la 0) (ra 0) (ix2 p q))
        + chunk (F := Ideal) (la 1) (ra 1) (ix2 p q)) + chunk (F := Ideal) (la 2) (ra 2) (ix2 p q))
        + chunk (F := Ideal) (la 3) (ra 3) (ix2 p q)) + chunk (F := Ideal) (la 4) (ra 4) (ix2 p q))
        + chunk (F := Ideal) (la 5) (ra 5) (ix2 p q)) + chunk (F := Ideal) (la 6) (ra 6) (ix2 p q))
        + chunk (F := Ideal) (la 7) (ra 7) (ix2 p q)) = _
  simp only [chunk_apply]
  rw [Ideal.ofBits_zero_f32, zero_sub, zero_add]
  exact congrArg (fun t : EReal => -t)
    (Fin.sum_univ_eight fun c : Fin 8 => ∑ j : Fin 8, absDiff (la c (ix3 (0 : Fin 1) j p)) (ra c (ix3 (0 : Fin 1) j q))).symm

end Cert.KernelIdeal.Body

end
-- ==== Proof.TileValue.lean ====
/-
  What one grid point leaves in the output tile.

  At a grid point the body sees a left tile `x0 : [1, 64, 256]` (64 coordinates by 256 left rows) and a right tile
  `x1 : [1, 64, 512]` (64 coordinates by 512 right rows). Its eight loads of each are the row blocks `8c … 8c+7`
  (`leftRows`, `rightRows`), and the one store that covers the output tile writes `body` of them
  (`piece_eq_body`). So at `(u, p, q)` the tile holds `-(∑ c < 8, ∑ j < 8, |x0 (0, 8c+j, p) - x1 (0, 8c+j, q)|)`,
  which by regrouping the eight blocks is `-(∑ d < 64, |x0 (0, d, p) - x1 (0, d, q)|)`: the specification's value
  at the output index whose row of `lhs` is column `p` of the left tile and whose row of `rhs` is column `q` of
  the right tile (`tile_apply`).
-/
import proofs.«134239_j38706245272206_2_alg».proof.Proof.Gen.KernelIdeal.Frame
import proofs.«134239_j38706245272206_2_alg».proof.Proof.ChunkValue
import Idealize.ShloMosaic.Lib.Pipeline.Value
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.ShloMosaic.Tactic
open Idealize.ShloMosaic.ValueIdx Idealize.SL.Sem
open Cert.Sad (absDiff sad)

variable {F : FTy → Type} [FloatOps F]

theorem zero_offsets : (![0, 0, 0] : Fin 3 → Nat) = fun _ => 0 := funext fun a => by fin_cases a <;> rfl

/-- Rows `8c … 8c+7` lie inside the 64 rows of the left tile. -/
theorem leftRows_inb (c : Fin 8) : ∀ a, (![0, 8 * c.val, 0] : Fin 3 → Nat) a + S1x8x256.size a ≤ S1x64x256.size a :=
  fun a => match a with
    | ⟨0, _⟩ => by show 0 + 1 ≤ 1; omega
    | ⟨1, _⟩ => by show 8 * c.val + 8 ≤ 64; have := c.isLt; omega
    | ⟨2, _⟩ => by show 0 + 256 ≤ 256; omega

/-- Rows `8c … 8c+7` lie inside the 64 rows of the right tile. -/
theorem rightRows_inb (c : Fin 8) : ∀ a, (![0, 8 * c.val, 0] : Fin 3 → Nat) a + S1x8x512.size a ≤ S1x64x512.size a :=
  fun a => match a with
    | ⟨0, _⟩ => by show 0 + 1 ≤ 1; omega
    | ⟨1, _⟩ => by show 8 * c.val + 8 ≤ 64; have := c.isLt; omega
    | ⟨2, _⟩ => by show 0 + 512 ≤ 512; omega

/-- Block `c` of the left tile: its rows `8c … 8c+7`. -/
def leftRows (x0 : Vec F S1x64x256 .f32) (c : Fin 8) : Vec F S1x8x256 .f32 :=
  View.ld x0 (Rect.unit (s := S1x64x256) ![0, 8 * c.val, 0] S1x8x256.size (leftRows_inb c))

/-- Block `c` of the right tile: its rows `8c … 8c+7`. -/
def rightRows (x1 : Vec F S1x64x512 .f32) (c : Fin 8) : Vec F S1x8x512 .f32 :=
  View.ld x1 (Rect.unit (s := S1x64x512) ![0, 8 * c.val, 0] S1x8x512.size (rightRows_inb c))

/-- Row `j` of block `c` is row `8c + j` of the tile. -/
theorem leftRows_apply (x0 : Vec F S1x64x256 .f32) (c j : Fin 8) (p : Fin 256) :
    leftRows x0 c (ix3 (0 : Fin 1) j p)
      = x0 (ix3 (0 : Fin 1) (⟨8 * c.val + j.val, by have := c.isLt; have := j.isLt; omega⟩ : Fin 64) p) := by
  show x0 ((Rect.unit (s := S1x64x256) ![0, 8 * c.val, 0] S1x8x256.size (leftRows_inb c)).idx (ix3 (0 : Fin 1) j p)) = _
  refine congrArg x0 (funext fun a => Fin.ext ?_)
  match a with
  | ⟨0, _⟩ => rfl
  | ⟨1, _⟩ => show 8 * c.val + 1 * j.val = 8 * c.val + j.val; omega
  | ⟨2, _⟩ => show 0 + 1 * p.val = p.val; omega

theorem rightRows_apply (x1 : Vec F S1x64x512 .f32) (c j : Fin 8) (q : Fin 512) :
    rightRows x1 c (ix3 (0 : Fin 1) j q)
      = x1 (ix3 (0 : Fin 1) (⟨8 * c.val + j.val, by have := c.isLt; have := j.isLt; omega⟩ : Fin 64) q) := by
  show x1 ((Rect.unit (s := S1x64x512) ![0, 8 * c.val, 0] S1x8x512.size (rightRows_inb c)).idx (ix3 (0 : Fin 1) j q)) = _
  refine congrArg x1 (funext fun a => Fin.ext ?_)
  match a with
  | ⟨0, _⟩ => rfl
  | ⟨1, _⟩ => show 8 * c.val + 1 * j.val = 8 * c.val + j.val; omega
  | ⟨2, _⟩ => show 0 + 1 * q.val = q.val; omega

/-- What the body leaves in the output's staging buffer: its one covering store's payload, over the sixteen loads —
    `body` of the tiles' row blocks. -/
theorem piece_eq_body (c : Dev nD) (i : grid0.Coords) (arg3 : Memref sig .tc .vmem S1x64x256 .f32) (harg3 : arg3.IsWhole)
    (arg4 : Memref sig .tc .vmem S1x64x512 .f32) (harg4 : arg4.IsWhole) (arg5 : Memref sig .tc .vmem S1x256x512 .f32)
    (harg5 : arg5.IsWhole) (x0 : Vec F S1x64x256 .f32) (x1 : Vec F S1x64x512 .f32) :
    out0_A_2 c i arg3 harg3 arg4 harg4 arg5 harg5 x0 x1 = body (leftRows x0) (rightRows x1) := by
  unfold out0_A_2
  rw [View.read_writes_eq_canon _ _ _ (cover0_A_2 c i arg3 harg3 arg4 harg4 arg5 harg5 x0 x1)]
  unfold kernelRun0_A
  dsimp only
  sl_unfold_words
  rw [View.canon_unit_zero zero_offsets]
  simp only [View.readAt_eq_ld, harg3.read_unread, harg4.read_unread]
  exact pay_eq_body (leftRows x0) (rightRows x1)

/-- The output tile at `(u, p, q)`, when column `p` of the left tile is row `(o 0, o 1)` of `A0` and column `q` of the
    right tile is row `(o 0, o 2)` of `A1`: the specification at `o`. -/
theorem tile_apply (c : Dev nD) (i : grid0.Coords) (arg3 : Memref sig .tc .vmem S1x64x256 .f32) (harg3 : arg3.IsWhole)
    (arg4 : Memref sig .tc .vmem S1x64x512 .f32) (harg4 : arg4.IsWhole) (arg5 : Memref sig .tc .vmem S1x256x512 .f32)
    (harg5 : arg5.IsWhole) (x0 : Vec Ideal S1x64x256 .f32) (x1 : Vec Ideal S1x64x512 .f32)
    (A0 A1 : (⟨3, ![4, 1024, 64]⟩ : Shape).Idx → EReal) (o : (⟨3, ![4, 1024, 1024]⟩ : Shape).Idx)
    (u : Fin 1) (p : Fin 256) (q : Fin 512)
    (h0 : ∀ d : Fin 64, x0 (ix3 (0 : Fin 1) d p) = A0 (ix3 (o 0) (o 1) d))
    (h1 : ∀ d : Fin 64, x1 (ix3 (0 : Fin 1) d q) = A1 (ix3 (o 0) (o 2) d)) :
    out0_A_2 (F := Ideal) c i arg3 harg3 arg4 harg4 arg5 harg5 x0 x1 (ix3 u p q) = sad A0 A1 o := by
  rw [piece_eq_body, body_apply]
  unfold Cert.Sad.sad
  rw [Cert.Sad.sum_eight_blocks]
  refine congrArg (fun t : EReal => -t) (Finset.sum_congr rfl fun b _ => Finset.sum_congr rfl fun j _ => ?_)
  rw [leftRows_apply, rightRows_apply, h0, h1]

end Cert.KernelIdeal.Body

end
-- ==== Proof.ArrayValue.lean ====
/-
  From tiles to the whole result array.

  The grid is `4 × 4 × 2`: point `(b, n, k)` reads the tile of the transposed `lhs` at block `(b, 0, n)`
  (`[1, 64, 256]`), the tile of the transposed `rhs` at block `(b, 0, k)` (`[1, 64, 512]`), and writes back block
  `(b, n, k)` of the result (`[1, 256, 512]`). The two staged arrays are the host's transposes of the arguments
  (`staged_lhs`, `staged_rhs`), so entry `(0, d, p)` of the left tile is `lhs (b, 256 n + p, d)` and entry
  `(0, d, q)` of the right tile is `rhs (b, 512 k + q, d)` (`left_entry`, `right_entry`). With the tile's value
  this makes what a point writes back the point's block of the specification (`flushed_eq`); the blocks of the
  32 points cover the result array (`cover`: index `(b, r, s)` lies in the block of point `(b, r / 256, s / 512)`),
  so after the run the result array is the specification of the two arguments (`final`, `run`).
-/
import proofs.«134239_j38706245272206_2_alg».proof.Proof.Gen.KernelIdeal.Value
import proofs.«134239_j38706245272206_2_alg».proof.Proof.TileValue
import Idealize.ShloMosaic.Lib.Pipeline.Value
import Idealize.ShloMosaic.Lib.ValueLayout
import Idealize.ShloMosaic.Lib.StableHlo.Run

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)
open Cert.Sad (sad)

variable (m : (ℓ : Loc nD τ sig) → Buf (Elt Ideal) ℓ) (ρ : Dev nD → PrngReg)

/-- The region finds, in the left window's array, `lhs` with its last two axes exchanged. -/
theorem staged_lhs (c : Dev nD) :
    (V m c main_v0 : S4x64x1024.Idx → Elt Ideal .f32)
      = transpose S4x64x1024 [0, 2, 1] (m ((c : Thread nD τ).loc main_arg0)) transposes_S4x1024x64_S4x64x1024_0_2_1 := by
  dsimp only [Gen.V, Gen.hostOps0]; after_results

/-- The region finds, in the right window's array, `rhs` with its last two axes exchanged. -/
theorem staged_rhs (c : Dev nD) :
    (V m c main_v1 : S4x64x1024.Idx → Elt Ideal .f32)
      = transpose S4x64x1024 [0, 2, 1] (m ((c : Thread nD τ).loc main_arg1)) transposes_S4x1024x64_S4x64x1024_0_2_1 := by
  dsimp only [Gen.V, Gen.hostOps0]; after_results

/-- The printed index maps, decided over the 32 points: both inputs follow the output's batch coordinate, the left
    tile the output's row block, the right tile its column block, neither moves along the 64 coordinates; and the
    output's block coordinates stay in `4 × 4 × 2`. -/
theorem index_maps : ∀ t : Fin cfg0.N,
    win0_0.index t (0 : Fin 3) = win0_2.index t (0 : Fin 3) ∧ win0_0.index t (1 : Fin 3) = 0
    ∧ win0_0.index t (2 : Fin 3) = win0_2.index t (1 : Fin 3)
    ∧ win0_1.index t (0 : Fin 3) = win0_2.index t (0 : Fin 3) ∧ win0_1.index t (1 : Fin 3) = 0
    ∧ win0_1.index t (2 : Fin 3) = win0_2.index t (2 : Fin 3)
    ∧ win0_2.index t (0 : Fin 3) < 4 ∧ win0_2.index t (1 : Fin 3) < 4 ∧ win0_2.index t (2 : Fin 3) < 2 :=
  (by decide +kernel : ∀ t : Fin grid0.N, _)

/-- Every block of the result is some point's. -/
theorem index_onto : ∀ (q0 : Fin 4) (q1 : Fin 4) (q2 : Fin 2), ∃ t : Fin cfg0.N, win0_2.index t = ![q0.val, q1.val, q2.val] :=
  (by decide +kernel : ∀ (q0 : Fin 4) (q1 : Fin 4) (q2 : Fin 2), ∃ t : Fin grid0.N, win0_2.index t = ![q0.val, q1.val, q2.val])

/-- Entry `(0, d, p)` of the left tile at point `t` is `lhs (b, r, d)`, for `(b, r)` the result row that column `p`
    of the tile belongs to. -/
theorem left_entry (c : Dev nD) (t : Fin cfg0.N) (u : Fin 1) (d : Fin 64) (p : Fin 256) (b : Fin 4) (r : Fin 1024)
    (hb : b.val = win0_2.index t (0 : Fin 3) * 1 + 1 * u.val) (hr : r.val = win0_2.index t (1 : Fin 3) * 256 + 1 * p.val) :
    (iblk m c 0 t : Vec Ideal S1x64x256 .f32) (ix3 (0 : Fin 1) d p) = m ((c : Thread nD τ).loc main_arg0) (ix3 b r d) := by
  obtain ⟨e0, e1, e2, -⟩ := index_maps t
  have hu : u.val = 0 := by have := u.isLt; omega
  show V m c main_v0 (((cfg0.win 0).blk t).view.emb (ix3 (0 : Fin 1) d p)) = _
  refine (congrFun (staged_lhs m c) _).trans ?_
  refine transpose_apply _ _ _ _ (ix3 b r d) (fun a => ?_)
  match a with
  | ⟨0, _⟩ => show b.val = win0_0.index t (0 : Fin 3) * 1 + 1 * 0; omega
  | ⟨1, _⟩ => show d.val = win0_0.index t (1 : Fin 3) * 64 + 1 * d.val; omega
  | ⟨2, _⟩ => show r.val = win0_0.index t (2 : Fin 3) * 256 + 1 * p.val; omega

/-- Entry `(0, d, q)` of the right tile at point `t` is `rhs (b, s, d)`, for `(b, s)` the result column that column
    `q` of the tile belongs to. -/
theorem right_entry (c : Dev nD) (t : Fin cfg0.N) (u : Fin 1) (d : Fin 64) (q : Fin 512) (b : Fin 4) (s : Fin 1024)
    (hb : b.val = win0_2.index t (0 : Fin 3) * 1 + 1 * u.val) (hs : s.val = win0_2.index t (2 : Fin 3) * 512 + 1 * q.val) :
    (iblk m c 1 t : Vec Ideal S1x64x512 .f32) (ix3 (0 : Fin 1) d q) = m ((c : Thread nD τ).loc main_arg1) (ix3 b s d) := by
  obtain ⟨-, -, -, e0, e1, e2, -⟩ := index_maps t
  have hu : u.val = 0 := by have := u.isLt; omega
  show V m c main_v1 (((cfg0.win 1).blk t).view.emb (ix3 (0 : Fin 1) d q)) = _
  refine (congrFun (staged_rhs m c) _).trans ?_
  refine transpose_apply _ _ _ _ (ix3 b s d) (fun a => ?_)
  match a with
  | ⟨0, _⟩ => show b.val = win0_1.index t (0 : Fin 3) * 1 + 1 * 0; omega
  | ⟨1, _⟩ => show d.val = win0_1.index t (1 : Fin 3) * 64 + 1 * d.val; omega
  | ⟨2, _⟩ => show s.val = win0_1.index t (2 : Fin 3) * 512 + 1 * q.val; omega

/-- What point `t` writes back is block `t` of the specification of the two arguments. -/
theorem flushed_eq (c : Dev nD) (t : Fin cfg0.N) :
    (dats m 0 c).flushed 2 t
      = ((cfg0.win 2).blk t).view.read (Elt Ideal)
          (sad (m ((c : Thread nD τ).loc main_arg0)) (m ((c : Thread nD τ).loc main_arg1))) := by
  rw [Cert.KernelIdeal.Value.flushed2_A]
  refine funext fun (y : S1x256x512.Idx) => ?_
  obtain ⟨u, p, q, rfl⟩ : ∃ (u : Fin 1) (p : Fin 256) (q : Fin 512), y = ix3 u p q := ⟨y 0, y 1, y 2, eq_ix3 y⟩
  show out0_A_2 (F := Ideal) c (grid0.coords t) (ms0_0 t) (hs0_0 t) (ms0_1 t) (hs0_1 t) (ms0_2 t) (hs0_2 t)
        (iblk m c 0 t) (iblk m c 1 t) (ix3 u p q)
      = sad (m ((c : Thread nD τ).loc main_arg0)) (m ((c : Thread nD τ).loc main_arg1))
          (((cfg0.win 2).blk t).view.emb (ix3 u p q))
  exact Body.tile_apply c (grid0.coords t) (ms0_0 t) (hs0_0 t) (ms0_1 t) (hs0_1 t) (ms0_2 t) (hs0_2 t)
    (iblk m c 0 t) (iblk m c 1 t) (m ((c : Thread nD τ).loc main_arg0)) (m ((c : Thread nD τ).loc main_arg1))
    (((cfg0.win 2).blk t).view.emb (ix3 u p q)) u p q
    (fun d => left_entry m c t u d p _ _ rfl rfl) (fun d => right_entry m c t u d q _ _ rfl rfl)

/-- An index of the result lies in point `t`'s block iff each coordinate lies in the block's range on its axis. -/
theorem mem_block (t : Fin cfg0.N) (i : S4x1024x1024.Idx) :
    i ∈ ((cfg0.win 2).blk t).view.set ↔ ∀ a : Fin 3, win0_2.index t a * S1x256x512.size a ≤ (i a).val
      ∧ (i a).val < win0_2.index t a * S1x256x512.size a + S1x256x512.size a := by
  show i ∈ ((View.whole main_v2).slice (win0_2.rect t)).set ↔ _
  rw [View.set_slice_whole, Rect.mem_set_unit]
  exact Iff.rfl

/-- Every index of the result lies in the block some point writes back: `(b, r, s)` in that of `(b, r / 256, s / 512)`. -/
theorem cover (i : S4x1024x1024.Idx) :
    ∃ t : Fin cfg0.N, (cfg0.win 2).flush t = true ∧ i ∈ ((cfg0.win 2).blk t).view.set := by
  have h0 : (i 0).val < 4 := (i 0).isLt
  have h1 : (i 1).val < 1024 := (i 1).isLt
  have h2 : (i 2).val < 1024 := (i 2).isLt
  obtain ⟨t, ht⟩ := index_onto ⟨(i 0).val, h0⟩ ⟨(i 1).val / 256, by omega⟩ ⟨(i 2).val / 512, by omega⟩
  have q0 : win0_2.index t (0 : Fin 3) = (i 0).val := congrFun ht 0
  have q1 : win0_2.index t (1 : Fin 3) = (i 1).val / 256 := congrFun ht 1
  have q2 : win0_2.index t (2 : Fin 3) = (i 2).val / 512 := congrFun ht 2
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 256 ≤ (i 1).val ∧ (i 1).val < win0_2.index t (1 : Fin 3) * 256 + 256
    omega
  | ⟨2, _⟩ =>
    show win0_2.index t (2 : Fin 3) * 512 ≤ (i 2).val ∧ (i 2).val < win0_2.index t (2 : Fin 3) * 512 + 512
    omega

/-- After the run the result array is the specification of the two arguments. -/
theorem final (c : Dev nD) :
    (dats m 0 c).arrAt 2 cfg0.N
      = sad (m ((c : Thread nD τ).loc main_arg0)) (m ((c : Thread nD τ).loc main_arg1)) :=
  (dats m 0 c).arrAt_eq_of_cover 2 _ (fun t _ => flushed_eq m c t) (cover)

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v2)
        = sad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Final

end
-- ==== Proof.RefValue.lean ====
/-
  The reference computes the specification.

  The reference broadcasts `lhs` along a new third axis and `rhs` along a new second axis to `[4, 1024, 1024, 64]`,
  subtracts, takes absolute values, sums the last axis from zero and negates. Read at `(b, n, k)` through the
  generated one-operation-at-a-time lemmas, the two broadcasts read `lhs (b, n, d)` and `rhs (b, k, d)`, so the result
  is `-(0 + ∑ d < 64, |lhs (b, n, d) - rhs (b, k, d)|)`, and `0 + x = x` on the extended reals.
-/
import proofs.«134239_j38706245272206_2_alg».proof.Proof.Gen.ReferenceIdeal.Read
import proofs.«134239_j38706245272206_2_alg».proof.Proof.SadSpec

noncomputable section

namespace Cert.ReferenceIdeal.RefValue

open Cert.ReferenceIdeal Cert.ReferenceIdeal.Gen Cert.ReferenceIdeal.Read Idealize.ShloMosaic Idealize.ShloMosaic.ValueIdx
open Cert.Sad (absDiff sad)

/-- Through the two broadcasts, entry `(b, n, k, d)` of the left operand is `lhs (b, n, d)`. -/
theorem left_index (i : S4x1024x1024.Idx) (d : Fin 64) :
    idx_main_v0 (idx_main_v2 (idx_main_v6 i d)) = ix3 (i 0) (i 1) d :=
  funext fun a => Fin.ext (by match a with | ⟨0, _⟩ => rfl | ⟨1, _⟩ => rfl | ⟨2, _⟩ => rfl)

/-- Through the two broadcasts, entry `(b, n, k, d)` of the right operand is `rhs (b, k, d)`. -/
theorem right_index (i : S4x1024x1024.Idx) (d : Fin 64) :
    idx_main_v1 (idx_main_v3 (idx_main_v6 i d)) = ix3 (i 0) (i 2) d :=
  funext fun a => Fin.ext (by match a with | ⟨0, _⟩ => rfl | ⟨1, _⟩ => rfl | ⟨2, _⟩ => rfl)

/-- The reference's result is the negated sum of absolute differences. -/
theorem ref_eq_sad (x0 x1 : (⟨S4x1024x64, .f32⟩ : BufTy).Contents (Elt Ideal)) :
    val_main_v7 (F := Ideal) x0 x1 = sad x0 x1 := by
  funext i
  rw [val_main_v7_apply, val_main_v6_apply]
  simp only [val_main_v5_apply, val_main_v4_apply, val_main_v3_apply, val_main_v2_apply, val_main_v1_apply,
    val_main_v0_apply, val_main_cst_apply, left_index, right_index]
  show -((Ideal.ofBits .f32 0x00000000#32 : EReal)
      + ∑ d : Fin 64, absDiff (x0 (ix3 (i 0) (i 1) d)) (x1 (ix3 (i 0) (i 2) d))) = _
  rw [Ideal.ofBits_zero_f32, zero_add]
  rfl

end Cert.ReferenceIdeal.RefValue

end
-- ==== Proof.lean ====
/-
  The negated L1 distance between every row of `lhs` and every row of `rhs`, batch by batch:
      out (b, n, k) = -(∑ d < 64, |lhs (b, n, d) - rhs (b, k, d)|),   lhs, rhs : [4, 1024, 64],  out : [4, 1024, 1024].

  The reference broadcasts both arguments to `[4, 1024, 1024, 64]`, subtracts, takes absolute values, sums the last
  axis from zero and negates (Proof/RefValue.lean). The kernel transposes both arguments on the host so that the 64
  coordinates lie along the second axis, and on a `4 × 4 × 2` grid computes one `256 × 512` tile of the result per
  point: it walks the 64 coordinates in eight blocks of eight, sums `|l - r|` over each block, adds the eight block
  sums to a zero tile and negates the total as `0 - total` (Proof/ChunkValue.lean, Proof/TileValue.lean); the 32
  tiles cover the result (Proof/ArrayValue.lean). On the extended reals the two are one function of the arguments
  (Proof/SadSpec.lean): `0 + x = x`, `0 - x = -x`, and a sum over 64 coordinates is the sum of its eight blocks of
  eight, which uses only commutativity and associativity of `+`. So the claim holds at every input, the infinities
  included, and the precondition that the inputs are finite is never opened.

  The three frames are the generated ones (the reference's is its generated run with the result dropped); the
  idealization rewrote nothing, so `preserves` is `True`.
-/
import proofs.«134239_j38706245272206_2_alg».proof.Defs
import proofs.«134239_j38706245272206_2_alg».proof.Proof.Gen.Kernel
import proofs.«134239_j38706245272206_2_alg».proof.Proof.Gen.Kernel.Frame
import proofs.«134239_j38706245272206_2_alg».proof.Proof.Gen.KernelIdeal
import proofs.«134239_j38706245272206_2_alg».proof.Proof.Gen.KernelIdeal.Frame
import proofs.«134239_j38706245272206_2_alg».proof.Proof.Gen.KernelIdeal.Value
import proofs.«134239_j38706245272206_2_alg».proof.Proof.Gen.ReferenceIdeal
import proofs.«134239_j38706245272206_2_alg».proof.Proof.Gen.ReferenceIdeal.Run
import proofs.«134239_j38706245272206_2_alg».proof.Proof.Gen.ReferenceIdeal.Read
import proofs.«134239_j38706245272206_2_alg».proof.Proof.Gen.Pre_finite_inputs
import proofs.«134239_j38706245272206_2_alg».proof.Proof.ArrayValue
import proofs.«134239_j38706245272206_2_alg».proof.Proof.RefValue
import Idealize.ShloMosaic.Adequacy
import Idealize.ShloMosaic.Init

noncomputable section

namespace Cert.Proof

open Idealize.ShloMosaic Idealize.ShloMosaic.TcCoe Idealize.SL.Sem
open Cert.Sad (sad)

theorem frame_kernel : Cert.frame_Kernel := fun m ρ _ => Cert.Kernel.Gen.frame m ρ

theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `sad` of arguments that agree: the kernel's by its tiles
    (`Cert.KernelIdeal.Final.run`), the reference's by reading its operations at an index (`ref_eq_sad`). -/
theorem algebraic : Cert.algebraic_KernelIdeal_ReferenceIdeal := by
  intro m ρ m' ρ' _ hagree
  refine ⟨fun c => sad (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq_sad, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
